-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S20x256 : Shape := ⟨2, ![20, 256]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S20x256 : S_.BroadcastsInDim S20x256 (![] : Fin 0 → Fin S20x256.rank)
  reducesTo_S20x256_S_d0_1 : S20x256.ReducesTo [0, 1] S_

variable [Facts]

def fn {F : FTy → Type} [FloatOps F] (main_arg0 : FVec F S16x1024x256 .f32) (main_arg1 : FVec F S16x1024x256 .f32) (main_arg2 : FVec F S20x256 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024x256 .f32 := Host.absf main_arg1
  let main_cst_0 : FVec F S_ .f32 := constant S_ .f32 0x7F800000#32
  let main_v5 : FVec F S16x1024x256 .f32 := broadcastInDim S16x1024x256 ![] bcast_S_S16x1024x256 main_cst_0
  let main_v6 : IVec S16x1024x256 1 := cmpf .olt main_v4 main_v5
  let main_c_1 : IVec S_ 1 := constantI S_ 1 1#1
  let main_v7 : IVec S_ 1 := (fun x v => Host.reduce IntOp.andi x v reducesTo_S16x1024x256_S_d0_1_2 h_S_) main_v6 main_c_1
  let main_v8 : IVec S_ 1 := andi main_v3 main_v7
  let main_v9 : FVec F S20x256 .f32 := Host.absf main_arg2
  let main_cst_2 : FVec F S_ .f32 := constant S_ .f32 0x7F800000#32
  let main_v10 : FVec F S20x256 .f32 := broadcastInDim S20x256 ![] bcast_S_S20x256 main_cst_2
  let main_v11 : IVec S20x256 1 := cmpf .olt main_v9 main_v10
  let main_c_3 : IVec S_ 1 := constantI S_ 1 1#1
  let main_v12 : IVec S_ 1 := (fun x v => Host.reduce IntOp.andi x v reducesTo_S20x256_S_d0_1 h_S_) main_v11 main_c_3
  let main_v13 : IVec S_ 1 := andi main_v8 main_v12
  main_v13
-- ==== Kernel.lean ====
abbrev S16x1024x256 : Shape := ⟨3, ![16, 1024, 256]⟩
abbrev S20x256 : Shape := ⟨2, ![20, 256]⟩
abbrev S_ : Shape := ⟨0, ![]⟩
abbrev S128x256 : Shape := ⟨2, ![128, 256]⟩
abbrev S16x1024x128 : Shape := ⟨3, ![16, 1024, 128]⟩
abbrev S1x1024x256 : Shape := ⟨3, ![1, 1024, 256]⟩
abbrev S1x1024x128 : Shape := ⟨3, ![1, 1024, 128]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S1024x1024 : Shape := ⟨2, ![1024, 1024]⟩
abbrev S256 : Shape := ⟨1, ![256]⟩
abbrev S1x256 : Shape := ⟨2, ![1, 256]⟩
abbrev S256x128 : Shape := ⟨2, ![256, 128]⟩
abbrev S1024x128 : Shape := ⟨2, ![1024, 128]⟩
abbrev S16x1024x20 : Shape := ⟨3, ![16, 1024, 20]⟩

abbrev nBuf : Space → Nat
  | .hbm => 8
  | .vmem => 7
  | .smem => 0
  | _ => 0

abbrev bufTy : (tb : Table) → Fin (tcTables nBuf tb) → BufTy
  | .hbm, ⟨0, _⟩ => ⟨S16x1024x256, .f32⟩
  | .hbm, ⟨1, _⟩ => ⟨S16x1024x256, .f32⟩
  | .hbm, ⟨2, _⟩ => ⟨S20x256, .f32⟩
  | .hbm, ⟨3, _⟩ => ⟨S_, .i32⟩
  | .hbm, ⟨4, _⟩ => ⟨S_, .f32⟩
  | .hbm, ⟨5, _⟩ => ⟨S128x256, .f32⟩
  | .hbm, ⟨6, _⟩ => ⟨S16x1024x128, .f32⟩
  | .hbm, ⟨7, _⟩ => ⟨S16x1024x20, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S128x256, .f32⟩
  | .local _ .vmem, ⟨5, _⟩ => ⟨S1x1024x128, .f32⟩
  | .local _ .vmem, ⟨6, _⟩ => ⟨S1x1024x128, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S20x256_S128x256_01080_000 : S20x256.Pads (![0, 0] : Fin 2 → Nat) ![108, 0] ![0, 0] S128x256
  h_S_ : 0 < S_.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  transposes_S1024x256_p1_0_S256x1024 : S1024x256.Transposes [1, 0] S256x1024
  reduces_S1024x256_S256 : S1024x256.Reduces [0] S256
  shapeCasts_S256_S1x256 : S256.ShapeCasts S1x256
  broadcasts_S1x256_S1024x256 : S1x256.Broadcasts S1024x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S16x1024x128_S16x1024x20_0_0_0 : S16x1024x128.Slices ![0, 0, 0] S16x1024x20
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S16x1024x256.size a
  hwx0_1 : ∀ i : grid0.Coords, EltTy.bits .f32 = 32 ∨ (Rect.block (s := S16x1024x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S16x1024x128.size a
  hwx0_3 : ∀ i : grid0.Coords, EltTy.bits .f32 = 32 ∨ (Rect.block (s := S16x1024x128) S1x1024x128.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x256 : Shape := ⟨3, ![16, 1024, 256]⟩
abbrev S20x256 : Shape := ⟨2, ![20, 256]⟩
abbrev S_ : Shape := ⟨0, ![]⟩
abbrev S16x1024 : Shape := ⟨2, ![16, 1024]⟩
abbrev S16x1024x1024 : Shape := ⟨3, ![16, 1024, 1024]⟩
abbrev S16x1024x1 : Shape := ⟨3, ![16, 1024, 1]⟩
abbrev S16x1x1024 : Shape := ⟨3, ![16, 1, 1024]⟩
abbrev S16x1024x20 : Shape := ⟨3, ![16, 1024, 20]⟩

abbrev nBuf : Space → Nat
  | .hbm => 50
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S16x1024x256, .f32⟩
  | .hbm, ⟨2, _⟩ => ⟨S20x256, .f32⟩
  | .hbm, ⟨3, _⟩ => ⟨S16x1024x256, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024x256, .f32⟩
  | .hbm, ⟨11, _⟩ => ⟨S_, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1024x1024, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x1x1024, .f32⟩
  | .hbm, ⟨22, _⟩ => ⟨S16x1024x1024, .f32⟩
  | .hbm, ⟨23, _⟩ => ⟨S16x1024x1024, .f32⟩
  | .hbm, ⟨24, _⟩ => ⟨S16x1024x256, .f32⟩
  | .hbm, ⟨25, _⟩ => ⟨S_, .f32⟩
  | .hbm, ⟨26, _⟩ => ⟨S16x1024, .f32⟩
  | .hbm, ⟨27, _⟩ => ⟨S16x1024x1, .f32⟩
  | .hbm, ⟨28, _⟩ => ⟨S_, .f32⟩
  | .hbm, ⟨29, _⟩ => ⟨S16x1024x1, .f32⟩
  | .hbm, ⟨30, _⟩ => ⟨S16x1024x1, .f32⟩
  | .hbm, ⟨31, _⟩ => ⟨S16x1024x256, .f32⟩
  | .hbm, ⟨32, _⟩ => ⟨S16x1024x256, .f32⟩
  | .hbm, ⟨33, _⟩ => ⟨S20x256, .f32⟩
  | .hbm, ⟨34, _⟩ => ⟨S16x1024x256, .f32⟩
  | .hbm, ⟨35, _⟩ => ⟨S16x1024x20, .f32⟩
  | .hbm, ⟨36, _⟩ => ⟨S16x1024x256, .f32⟩
  | .hbm, ⟨37, _⟩ => ⟨S16x1024x20, .f32⟩
  | .hbm, ⟨38, _⟩ => ⟨S_, .f32⟩
  | .hbm, ⟨39, _⟩ => ⟨S16x1024x20, .f32⟩
  | .hbm, ⟨40, _⟩ => ⟨S16x1024x20, .f32⟩
  | .hbm, ⟨41, _⟩ => ⟨S16x1024x20, .f32⟩
  | .hbm, ⟨42, _⟩ => ⟨S16x1024x256, .f32⟩
  | .hbm, ⟨43, _⟩ => ⟨S16x1024x20, .f32⟩
  | .hbm, ⟨44, _⟩ => ⟨S_, .f32⟩
  | .hbm, ⟨45, _⟩ => ⟨S16x1024x20, .f32⟩
  | .hbm, ⟨46, _⟩ => ⟨S16x1024x20, .f32⟩
  | .hbm, ⟨47, _⟩ => ⟨S16x1024x20, .f32⟩
  | .hbm, ⟨48, _⟩ => ⟨S16x1024x20, .f32⟩
  | .hbm, ⟨49, _⟩ => ⟨S16x1024x20, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  reducesTo_S16x1024x256_S16x1024_d2 : S16x1024x256.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  reducesTo_S16x1024x1024_S16x1024_d2 : S16x1024x1024.ReducesTo [2] S16x1024
  bcast_S_S16x1024x1 : S_.BroadcastsInDim S16x1024x1 (![] : Fin 0 → Fin S16x1024x1.rank)
  bcast_S16x1024x1_S16x1024x256_0_1_2 : S16x1024x1.BroadcastsInDim S16x1024x256 (![0, 1, 2] : Fin 3 → Fin S16x1024x256.rank)
  bcast_S_S16x1024x20 : S_.BroadcastsInDim S16x1024x20 (![] : Fin 0 → Fin S16x1024x20.rank)
  dot_S16x1024x256_S16x1024x256_S16x1024x1024_2_2_1_1_0_0_wf : DotDims.WF S16x1024x256 S16x1024x256 S16x1024x1024 [2] [2] [1] [1] [0] [0]
  dot_S16x1024x1024_S16x1024x256_S16x1024x256_2_1_1_2_0_0_wf : DotDims.WF S16x1024x1024 S16x1024x256 S16x1024x256 [2] [1] [1] [2] [0] [0]
  dot_S16x1024x256_S20x256_S16x1024x20_2_1_01_0_n_n_wf : DotDims.WF S16x1024x256 S20x256 S16x1024x20 [2] [1] [0, 1] [0] [] []

variable [Facts₀]

def dot_S16x1024x256_S16x1024x256_S16x1024x1024_2_2_1_1_0_0 : DotDims S16x1024x256 S16x1024x256 S16x1024x1024 where
  lhsContracting := [2]
  rhsContracting := [2]
  lhsNonContracting := [1]
  rhsNonContracting := [1]
  lhsBatch := [0]
  rhsBatch := [0]
  wf := dot_S16x1024x256_S16x1024x256_S16x1024x1024_2_2_1_1_0_0_wf
def dot_S16x1024x1024_S16x1024x256_S16x1024x256_2_1_1_2_0_0 : DotDims S16x1024x1024 S16x1024x256 S16x1024x256 where
  lhsContracting := [2]
  rhsContracting := [1]
  lhsNonContracting := [1]
  rhsNonContracting := [2]
  lhsBatch := [0]
  rhsBatch := [0]
  wf := dot_S16x1024x1024_S16x1024x256_S16x1024x256_2_1_1_2_0_0_wf
def dot_S16x1024x256_S20x256_S16x1024x20_2_1_01_0_n_n : DotDims S16x1024x256 S20x256 S16x1024x20 where
  lhsContracting := [2]
  rhsContracting := [1]
  lhsNonContracting := [0, 1]
  rhsNonContracting := [0]
  lhsBatch := []
  rhsBatch := []
  wf := dot_S16x1024x256_S20x256_S16x1024x20_2_1_01_0_n_n_wf

class Facts : Prop extends Facts₀ where

variable [Facts]
-- ==== Proof.LibKeepdims.lean ====
/-
  General lemmas for a kernel body that keeps dimensions (`keepdims=True`): a vector cast to a one-column matrix
  and a one-column matrix broadcast over the lanes, both read at an index; the sum of a matrix along its lanes or
  along its sublanes as a `Fin`-indexed sum of its entries; and a plain two-dimensional matrix product
  (rows × contraction times contraction × columns, into a zero accumulator) as the sum over the contraction of
  the entries' products. All at the ideal values, over literal index constructors.
-/
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.Keepdims

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a matrix along its LANES (axis 1), at row `l`: the sum over the columns of row `l`'s entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (l : Fin a) :
    multiReduction .add [1] ⟨1, ![a]⟩ src acc h hφ hacc (ix1 l) = ∑ d : Fin b, src (ix2 l d) :=
  (Ideal.multiReduction_add_single src acc h hφ hacc (ix1 l)).trans
    (Finset.sum_congr rfl fun d _ => congrArg src (funext fun c => Fin.ext (by
      match c with
      | ⟨0, _⟩ => rfl
      | ⟨1, _⟩ => rfl)))

/-- The sum of a matrix along its SUBLANES (axis 0), at column `d`: the sum over the rows of column `d`'s entries. -/
theorem sublaneSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (d : Fin b) :
    multiReduction .add [0] ⟨1, ![b]⟩ src acc h hφ hacc (ix1 d) = ∑ m : Fin a, src (ix2 m d) :=
  (Ideal.multiReduction_add_single src acc h hφ hacc (ix1 d)).trans
    (Finset.sum_congr rfl fun m _ => congrArg src (funext fun c => Fin.ext (by
      match c with
      | ⟨0, _⟩ => rfl
      | ⟨1, _⟩ => rfl)))

/-- The dimension numbers of a plain two-dimensional product: rows × contraction times contraction × columns. -/
abbrev plainDot {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section PlainDot
variable {M K N : ℕ} (wf : DotDims.WF ⟨2, ![M, K]⟩ ⟨2, ![K, N]⟩ ⟨2, ![M, N]⟩ [1] [0] [0] [1] [] [])

/-- The left operand's row is the output's row; -/
theorem plainDot_lhs_0 (j : (⟨2, ![M, N]⟩ : Shape).Idx) (q : (plainDot wf).contr.Idx) :
    ((plainDot wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl
/-- its column is the contraction index; -/
theorem plainDot_lhs_1 (j : (⟨2, ![M, N]⟩ : Shape).Idx) (q : (plainDot wf).contr.Idx) :
    ((plainDot wf).lhsIdx j q 1).val = (q ⟨0, (show 0 < 1 from Nat.one_pos)⟩).val :=
  (plainDot wf).lhsIdx_val_of_single rfl j q
/-- the right operand's row is the contraction index; -/
theorem plainDot_rhs_0 (j : (⟨2, ![M, N]⟩ : Shape).Idx) (q : (plainDot wf).contr.Idx) :
    ((plainDot wf).rhsIdx j q 0).val = (q ⟨0, (show 0 < 1 from Nat.one_pos)⟩).val :=
  (plainDot wf).rhsIdx_val_of_single rfl j q
/-- and its column is the output's column. -/
theorem plainDot_rhs_1 (j : (⟨2, ![M, N]⟩ : Shape).Idx) (q : (plainDot wf).contr.Idx) :
    ((plainDot wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- A plain two-dimensional matrix product into the zero accumulator, at `(l, n)`: the sum over the contraction
    index `k` of the left operand at `(l, k)` times the right operand at `(k, n)`. -/
theorem matmul2_apply {φ₁ φ₂ : FTy}
    (prec : Option ContractPrecision) (lhs : FVec Ideal ⟨2, ![M, K]⟩ φ₁) (rhs : FVec Ideal ⟨2, ![K, N]⟩ φ₂) (l : Fin M) (n : Fin N) :
    matmul (plainDot wf) prec lhs rhs (constant ⟨2, ![M, N]⟩ .f32 0x00000000#32) (ix2 l n)
      = ∑ k : Fin K, lhs (ix2 l k) * rhs (ix2 k n) := by
  simp only [matmul]
  rw [Ideal.matmul_constant_zero_apply, ← Equiv.sum_comp (contrEquiv1 (plainDot wf) K rfl rfl).symm]
  refine Finset.sum_congr rfl fun k _ => ?_
  have hk := contrEquiv1_symm_val (plainDot wf) K rfl rfl k
  have el : (plainDot wf).lhsIdx (ix2 l n) ((contrEquiv1 (plainDot wf) K rfl rfl).symm k) = ix2 l k := funext fun a => Fin.ext (by
    match a with
    | ⟨0, _⟩ => exact plainDot_lhs_0 wf _ _
    | ⟨1, _⟩ => exact (plainDot_lhs_1 wf _ _).trans hk)
  have er : (plainDot wf).rhsIdx (ix2 l n) ((contrEquiv1 (plainDot wf) K rfl rfl).symm k) = ix2 k n := funext fun a => Fin.ext (by
    match a with
    | ⟨0, _⟩ => exact (plainDot_rhs_0 wf _ _).trans hk
    | ⟨1, _⟩ => exact plainDot_rhs_1 wf _ _)
  rw [el, er]

end PlainDot

end Cert.Keepdims

end
-- ==== Proof.AttentiveSpec.lean ====
/-
  The arithmetic of the cosine cross-attention ("mean attentive vector") and of the perspective-weighted cosine
  match, on the extended reals, with no program in sight.

  For a row `a` of the first sentence and the rows `B m` of the second, with `‖x‖ε = √(max (Σ x², ε))`:
    cos a (B m)   = (a · B m) / ‖a‖ε / ‖B m‖ε          — the dot product divided by both clamped norms, or
                  = Σ_d (a d / ‖a‖ε) · (B m d / ‖B m‖ε)   — the dot product of the rows normalised first;
    mass a B      = Σ_m cos a (B m) + ε,                 or
                  = Σ_d (a d / ‖a‖ε) · (Σ_m B m d / ‖B m‖ε) + ε   — the sum over m taken inside the dot product;
    mav a B d     = (Σ_m cos a (B m) · B m d) / mass a B.
  The two spellings of `cos` and of `mass` are equal when every entry is a real number and ε is a positive real:
  then both clamped norms are positive reals, a quotient by them is a product with a real reciprocal, and the
  identities are distributivity and the exchange of two finite sums in ℝ. They FAIL on the extended reals at large
  (a product does not distribute over a sum with an infinite term), which is why finiteness of the inputs is used.
  Past `mav` nothing is rearranged: `persp` is one expression of `a`, `mav` and a kernel row.
-/
import Idealize.ShloMosaic.PureOps.Ideal.Laws

noncomputable section

open Idealize.ShloMosaic
open scoped BigOperators

namespace Cert.Attentive

variable {κ δ : Type} [Fintype κ] [Fintype δ]

/-- The clamped Euclidean norm of a row: `√(max (Σ_d x_d², ε))`. -/
def rowNorm (ε : EReal) (x : δ → EReal) : EReal := Ideal.sqrt (max (∑ d, x d * x d) ε)

/-- The cosine of two rows, each row divided by its own clamped norm BEFORE the dot product. -/
def cosOfUnit (ε : EReal) (a b : δ → EReal) : EReal :=
  ∑ d, Ideal.div (a d) (rowNorm ε a) * Ideal.div (b d) (rowNorm ε b)

/-- The cosine of two rows, the dot product divided by the first row's clamped norm and then by the second's. -/
def cosOfDot (ε : EReal) (a b : δ → EReal) : EReal :=
  Ideal.div (Ideal.div (∑ d, a d * b d) (rowNorm ε a)) (rowNorm ε b)

/-- The row's total cosine mass plus ε, the sum over the second sentence's rows taken INSIDE the dot product. -/
def massOfUnit (ε : EReal) (a : δ → EReal) (B : κ → δ → EReal) : EReal :=
  (∑ d, Ideal.div (a d) (rowNorm ε a) * ∑ m, Ideal.div (B m d) (rowNorm ε (B m))) + ε

/-- The row's total cosine mass plus ε, as the sum of the cosines. -/
def massOfDot (ε : EReal) (a : δ → EReal) (B : κ → δ → EReal) : EReal :=
  (∑ m, cosOfDot ε a (B m)) + ε

/-- The mean attentive vector from the rows-normalised-first cosines. -/
def mavOfUnit (ε : EReal) (a : δ → EReal) (B : κ → δ → EReal) (d : δ) : EReal :=
  Ideal.div (∑ m, cosOfUnit ε a (B m) * B m d) (massOfUnit ε a B)

/-- The mean attentive vector from the dot-product-then-divide cosines. -/
def mavOfDot (ε : EReal) (a : δ → EReal) (B : κ → δ → EReal) (d : δ) : EReal :=
  Ideal.div (∑ m, cosOfDot ε a (B m) * B m d) (massOfDot ε a B)

/-- The perspective-weighted cosine of a row `a` and its attentive vector `v` under a kernel row `k`:
    `Σ a v k² / √(max (Σ a² k², ε)) / √(max (Σ v² k², ε))`. -/
def persp (ε : EReal) (a v k : δ → EReal) : EReal :=
  Ideal.div (Ideal.div (∑ d, (a d * v d) * (k d * k d)) (Ideal.sqrt (max (∑ d, (a d * a d) * (k d * k d)) ε)))
    (Ideal.sqrt (max (∑ d, (v d * v d) * (k d * k d)) ε))

end Cert.Attentive

end
-- ==== Proof.KernelEntry.lean ====
/-
  The kernel body's arithmetic read entry by entry.
-/
import proofs.«145634_j51187420234470_2_alg».proof.Proof.Gen.KernelIdeal.Skeleton
import proofs.«145634_j51187420234470_2_alg».proof.Proof.LibKeepdims
import proofs.«145634_j51187420234470_2_alg».proof.Proof.AttentiveSpec

noncomputable section

open Idealize.ShloMosaic Idealize.ShloMosaic.ValueIdx
open scoped BigOperators

namespace Cert.KernelIdeal.Entry

open Cert.KernelIdeal Cert.KernelIdeal.Gen Cert.Keepdims Cert.Attentive

/-- ε, the word of `1e-7`, as an extended real. -/
abbrev eps : EReal := Ideal.ofBits .f32 0x33D6BF95#32

/-! ## The printed operations at the body's shapes -/

theorem laneSum256 (src : FVec Ideal S1024x256 .f32) (hacc : (0x00000000#32 : BitVec 32) = 0x00000000#32) (l : Fin 1024) :
    multiReduction .add [1] S1024 src 0x00000000#32 reduces_S1024x256_S1024 (.inl rfl) hacc (ix1 l) = ∑ d : Fin 256, src (ix2 l d) :=
  laneSum_apply src _ reduces_S1024x256_S1024 _ _ l

theorem sublaneSum1024 (src : FVec Ideal S1024x256 .f32) (hacc : (0x00000000#32 : BitVec 32) = 0x00000000#32) (d : Fin 256) :
    multiReduction .add [0] S256 src 0x00000000#32 reduces_S1024x256_S256 (.inl rfl) hacc (ix1 d) = ∑ m : Fin 1024, src (ix2 m d) :=
  sublaneSum_apply src _ reduces_S1024x256_S256 _ _ d

theorem cosProduct_apply (lhs : FVec Ideal S1024x256 .bf16) (rhs : FVec Ideal S256x1024 .bf16) (l m : Fin 1024) :
    matmul dot_S1024x256_S256x1024_S1024x1024_1_0_0_1_n_n none lhs rhs (constant S1024x1024 .f32 0x00000000#32) (ix2 l m)
      = ∑ k : Fin 256, lhs (ix2 l k) * rhs (ix2 k m) :=
  matmul2_apply dot_S1024x256_S256x1024_S1024x1024_1_0_0_1_n_n_wf none lhs rhs l m

theorem weightedProduct_apply (lhs : FVec Ideal S1024x1024 .bf16) (rhs : FVec Ideal S1024x256 .bf16) (l : Fin 1024) (d : Fin 256) :
    matmul dot_S1024x1024_S1024x256_S1024x256_1_0_0_1_n_n none lhs rhs (constant S1024x256 .f32 0x00000000#32) (ix2 l d)
      = ∑ k : Fin 1024, lhs (ix2 l k) * rhs (ix2 k d) :=
  matmul2_apply dot_S1024x1024_S1024x256_S1024x256_1_0_0_1_n_n_wf none lhs rhs l d

theorem perspProduct_apply (lhs : FVec Ideal S1024x256 .bf16) (rhs : FVec Ideal S256x128 .bf16) (l : Fin 1024) (p : Fin 128) :
    matmul dot_S1024x256_S256x128_S1024x128_1_0_0_1_n_n none lhs rhs (constant S1024x128 .f32 0x00000000#32) (ix2 l p)
      = ∑ k : Fin 256, lhs (ix2 l k) * rhs (ix2 k p) :=
  matmul2_apply dot_S1024x256_S256x128_S1024x128_1_0_0_1_n_n_wf none lhs rhs l p

/-! ## The body's axis-wise operations under names of their own

The lane sum, the sublane sum and the two transposes carry a list of axes; naming each once lets the index be
pushed through them by rewriting. -/

/-- The sum of a [1024, 256] matrix along its lanes. -/
def laneSum (x : FVec Ideal S1024x256 .f32) : FVec Ideal S1024 .f32 :=
  multiReduction .add [1] S1024 x 0x00000000#32 reduces_S1024x256_S1024 (.inl rfl) rfl
/-- The sum of a [1024, 256] matrix along its sublanes. -/
def sublaneSum (x : FVec Ideal S1024x256 .f32) : FVec Ideal S256 .f32 :=
  multiReduction .add [0] S256 x 0x00000000#32 reduces_S1024x256_S256 (.inl rfl) rfl
/-- A [1024, 256] matrix transposed. -/
def trRows (x : FVec Ideal S1024x256 .bf16) : FVec Ideal S256x1024 .bf16 :=
  transpose S256x1024 [1, 0] x transposes_S1024x256_p1_0_S256x1024
/-- The [128, 256] kernel rows transposed. -/
def trKernel (x : FVec Ideal S128x256 .bf16) : FVec Ideal S256x128 .bf16 :=
  transpose S256x128 [1, 0] x transposes_S128x256_p1_0_S256x128

theorem laneSum_fold (x : FVec Ideal S1024x256 .f32) (hφ : FTy.f32 = FTy.f32 ∨ FTy.f32 = FTy.bf16) (hacc : (0x00000000#32 : BitVec 32) = 0x00000000#32) :
    multiReduction .add [1] S1024 x 0x00000000#32 reduces_S1024x256_S1024 hφ hacc = laneSum x := rfl
theorem sublaneSum_fold (x : FVec Ideal S1024x256 .f32) (hφ : FTy.f32 = FTy.f32 ∨ FTy.f32 = FTy.bf16) (hacc : (0x00000000#32 : BitVec 32) = 0x00000000#32) :
    multiReduction .add [0] S256 x 0x00000000#32 reduces_S1024x256_S256 hφ hacc = sublaneSum x := rfl
theorem trRows_fold (x : FVec Ideal S1024x256 .bf16) : transpose S256x1024 [1, 0] x transposes_S1024x256_p1_0_S256x1024 = trRows x := rfl
theorem trKernel_fold (x : FVec Ideal S128x256 .bf16) : transpose S256x128 [1, 0] x transposes_S128x256_p1_0_S256x128 = trKernel x := rfl

theorem laneSum_at (x : FVec Ideal S1024x256 .f32) (l : Fin 1024) : laneSum x (ix1 l) = ∑ d : Fin 256, x (ix2 l d) :=
  laneSum256 x rfl l
theorem sublaneSum_at (x : FVec Ideal S1024x256 .f32) (d : Fin 256) : sublaneSum x (ix1 d) = ∑ m : Fin 1024, x (ix2 m d) :=
  sublaneSum1024 x rfl d
theorem trRows_at (x : FVec Ideal S1024x256 .bf16) (k : Fin 256) (m : Fin 1024) : trRows x (ix2 k m) = x (ix2 m k) :=
  transpose_ix2_apply x _ k m
theorem trKernel_at (x : FVec Ideal S128x256 .bf16) (k : Fin 256) (p : Fin 128) : trKernel x (ix2 k p) = x (ix2 p k) :=
  transpose_ix2_apply x _ k p

/-! ## The small payloads -/

variable (x0 x1 : Vec Ideal S1x1024x256 .f32) (x2 : Vec Ideal S128x256 .f32)

/-- The first sentence's block as a matrix. -/
theorem pay2_apply (l : Fin 1024) (d : Fin 256) : k0_pay2 x0 (ix2 l d) = x0 (ix3 (0 : Fin 1) l d) :=
  shapeCast_1ab_ab_apply x0 shapeCasts_S1x1024x256_S1024x256 l d

theorem pay3_apply (l : Fin 1024) (d : Fin 256) : k0_pay3 x0 (ix2 l d) = x0 (ix3 (0 : Fin 1) l d) * x0 (ix3 (0 : Fin 1) l d) := by
  unfold k0_pay3
  simp only [ValueIdx.mulf_apply, pay2_apply]

/-- The squared kernel rows. -/
theorem pay5_apply (p : Fin 128) (d : Fin 256) : k0_pay5 x2 (ix2 p d) = x2 (ix2 p d) * x2 (ix2 p d) := by
  unfold k0_pay5
  simp only [ValueIdx.truncf_apply, ValueIdx.mulf_apply, shapeCast_self]

/-! ## Pointwise forms not in the library's list -/

theorem sqrt_apply {s : Shape} {φ : FTy} (a : FVec Ideal s φ) (i : s.Idx) : sqrt a i = Ideal.sqrt (a i) := rfl
theorem scalar_ofBits (φ : FTy) (b : BitVec φ.bits) : Scalar.ofBits (F := Ideal) φ b = Ideal.ofBits φ b := rfl

/-! ## The mean attentive vector -/

/-- Row `l` of the first sentence's block and the rows of the second's, as functions of the lane. -/
abbrev rowA (l : Fin 1024) : Fin 256 → EReal := fun d => x0 (ix3 (0 : Fin 1) l d)
abbrev rowsB : Fin 1024 → Fin 256 → EReal := fun m d => x1 (ix3 (0 : Fin 1) m d)

set_option maxHeartbeats 1000000 in
/-- The body's attentive vector at `(l, d)` is the rows-normalised-first spelling of the specification. -/
theorem pay4_apply (l : Fin 1024) (d : Fin 256) :
    k0_pay4 x0 x1 (ix2 l d) = mavOfUnit eps (rowA x0 l) (rowsB x1) d := by
  unfold k0_pay4
  dsimp only
  repeat rw [laneSum_fold]
  repeat rw [sublaneSum_fold]
  repeat rw [trRows_fold]
  simp only [ValueIdx.divf_apply, ValueIdx.mulf_apply, ValueIdx.addf_apply, ValueIdx.maximumf_apply, ValueIdx.truncf_apply,
    ValueIdx.broadcast_apply, sqrt_apply, scalar_ofBits, broadcastTo_a1_ab_apply, shapeCast_a_a1_apply, laneSum_at,
    sublaneSum_at, cosProduct_apply, weightedProduct_apply, trRows_at, shapeCast_a_1a_apply,
    broadcastTo_1b_ab_apply, shapeCast_1ab_ab_apply, pay2_apply, pay3_apply]
  rfl

/-- The row times its attentive vector. -/
theorem pay6_apply (l : Fin 1024) (d : Fin 256) :
    k0_pay6 x0 x1 (ix2 l d) = rowA x0 l d * mavOfUnit eps (rowA x0 l) (rowsB x1) d := by
  unfold k0_pay6
  simp only [ValueIdx.mulf_apply, pay2_apply, pay4_apply]

/-! ## The stored block -/

/-- Row `p` of the padded kernel block, as a function of the lane. -/
abbrev rowK (p : Fin 128) : Fin 256 → EReal := fun d => x2 (ix2 p d)

set_option maxHeartbeats 1000000 in
/-- WHAT THE BODY STORES at `(0, l, p)`: the perspective match of row `l`, its attentive vector and kernel row `p`. -/
theorem stored_apply (l : Fin 1024) (p : Fin 128) :
    k0_pay1 (k0_pay3 x0) (k0_pay4 x0 x1) (k0_pay5 x2) (k0_pay6 x0 x1) (ix3 (0 : Fin 1) l p)
      = persp eps (rowA x0 l) (mavOfUnit eps (rowA x0 l) (rowsB x1)) (rowK x2 p) := by
  unfold k0_pay1
  dsimp only
  repeat rw [trKernel_fold]
  simp only [shapeCast_ab_1ab_apply, ValueIdx.divf_apply, ValueIdx.mulf_apply, ValueIdx.maximumf_apply, ValueIdx.truncf_apply,
    ValueIdx.broadcast_apply, sqrt_apply, scalar_ofBits, perspProduct_apply, trKernel_at, pay3_apply, pay4_apply,
    pay5_apply, pay6_apply]
  rfl

end Cert.KernelIdeal.Entry

end
-- ==== Proof.KernelArray.lean ====
/-
  From blocks to the array. Grid point `t` (one per batch entry) stages batch `t` of both sentences and the whole
  padded kernel block, and writes back batch `t` of the output; the sixteen output blocks tile the array. So the
  output array after the run is ONE function of the arrays the region finds: at `(b, l, p)` the perspective match
  of row `l` of batch `b` of the first sentence, its attentive vector over batch `b` of the second, and row `p`
  of the padded kernel block.
-/
import proofs.«145634_j51187420234470_2_alg».proof.Proof.Gen.KernelIdeal.Frame
import proofs.«145634_j51187420234470_2_alg».proof.Proof.KernelEntry
import Idealize.ShloMosaic.Lib.Pipeline.Value

noncomputable section

open Idealize.ShloMosaic Idealize.ShloMosaic.TcCoe Idealize.ShloMosaic.ValueIdx Idealize.SL.Sem
open Idealize.ShloMosaic.Pipeline (Dat)
open scoped BigOperators

namespace Cert.KernelIdeal.Whole

open Cert.KernelIdeal Cert.KernelIdeal.Gen Cert.KernelIdeal.Entry Cert.Attentive

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result at batch `b`, row `l`, padded perspective `p`, from the two sentence arrays and the padded kernel rows. -/
def matchAt (a0 a1 : S16x1024x256.Idx → EReal) (k : S128x256.Idx → EReal) (b : Fin 16) (l : Fin 1024) (p : Fin 128) : EReal :=
  persp eps (fun d => a0 (ix3 b l d)) (mavOfUnit eps (fun d => a0 (ix3 b l d)) (fun m' d => a1 (ix3 b m' d))) (fun d => k (ix2 p d))

/-- The whole padded output array as one function of the arrays the region finds. -/
def padded (a0 a1 : S16x1024x256.Idx → EReal) (k : S128x256.Idx → EReal) : S16x1024x128.Idx → EReal := fun i =>
  matchAt a0 a1 k ⟨(i 0).val, (i 0).isLt⟩ ⟨(i 1).val, (i 1).isLt⟩ ⟨(i 2).val, (i 2).isLt⟩

theorem padded_apply (a0 a1 : S16x1024x256.Idx → EReal) (k : S128x256.Idx → EReal) (i : S16x1024x128.Idx)
    (b : Fin 16) (l : Fin 1024) (p : Fin 128) (h0 : (i 0).val = b.val) (h1 : (i 1).val = l.val) (h2 : (i 2).val = p.val) :
    padded a0 a1 k i = matchAt a0 a1 k b l p := by
  unfold padded
  have e0 : (⟨(i 0).val, (i 0).isLt⟩ : Fin 16) = b := Fin.ext h0
  have e1 : (⟨(i 1).val, (i 1).isLt⟩ : Fin 1024) = l := Fin.ext h1
  have e2 : (⟨(i 2).val, (i 2).isLt⟩ : Fin 128) = p := Fin.ext h2
  rw [e0, e1, e2]

/-- Grid point `t` as a batch index. -/
def batchOf (t : Fin cfg0.N) : Fin 16 := ⟨t.val, by have h : t.val < grid0.N := t.isLt; rw [N_0] at h; exact h⟩

/-- The printed index maps, decided over the sixteen points: the sentence windows and the output window sit at
    batch `t`, offset zero on the other axes; the kernel window does not move. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The input blocks, read where they lie in their arrays -/

theorem iblk0_apply (c : Dev nD) (t : Fin cfg0.N) (l : Fin 1024) (d : Fin 256) :
    (iblk m c 0 t : Vec Ideal S1x1024x256 .f32) (ix3 (0 : Fin 1) l d)
      = (V m c main_arg0 : S16x1024x256.Idx → EReal) (ix3 (batchOf t) l d) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val; rw [e0]; omega
  | ⟨1, _⟩ => show win0_0.index t (1 : Fin 3) * 1024 + 1 * l.val = l.val; rw [e1]; omega
  | ⟨2, _⟩ => show win0_0.index t (2 : Fin 3) * 256 + 1 * d.val = d.val; rw [e2]; omega

theorem iblk1_apply (c : Dev nD) (t : Fin cfg0.N) (l : Fin 1024) (d : Fin 256) :
    (iblk m c 1 t : Vec Ideal S1x1024x256 .f32) (ix3 (0 : Fin 1) l d)
      = (V m c main_arg1 : S16x1024x256.Idx → EReal) (ix3 (batchOf t) l d) := by
  obtain ⟨-, -, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = t.val; rw [e0]; omega
  | ⟨1, _⟩ => show win0_1.index t (1 : Fin 3) * 1024 + 1 * l.val = l.val; rw [e1]; omega
  | ⟨2, _⟩ => show win0_1.index t (2 : Fin 3) * 256 + 1 * d.val = d.val; rw [e2]; omega

theorem iblk2_apply (c : Dev nD) (t : Fin cfg0.N) (p : Fin 128) (d : Fin 256) :
    (iblk m c 2 t : Vec Ideal S128x256 .f32) (ix2 p d) = (V m c main_v0 : S128x256.Idx → EReal) (ix2 p d) := by
  obtain ⟨-, -, -, -, -, -, e0, e1, -⟩ := idx_facts t
  unfold iblk
  rw [View.read_apply]
  show V m c main_v0 _ = V m c main_v0 _
  refine congrArg (V m c main_v0) (funext fun a => Fin.ext ?_)
  match a with
  | ⟨0, _⟩ => show win0_2.index t (0 : Fin 2) * 128 + 1 * p.val = p.val; rw [e0]; omega
  | ⟨1, _⟩ => show win0_2.index t (1 : Fin 2) * 256 + 1 * d.val = d.val; rw [e1]; omega

/-! ## What a point writes back -/

/-- The row and the perspective of a block index. -/
def rowOf (j : S1x1024x128.Idx) : Fin 1024 := ⟨(j 1).val, (j 1).isLt⟩
def perspOf (j : S1x1024x128.Idx) : Fin 128 := ⟨(j 2).val, (j 2).isLt⟩

theorem blockIdx_eq (j : S1x1024x128.Idx) : j = ix3 (0 : Fin 1) (rowOf j) (perspOf j) :=
  funext fun a => Fin.ext (by
    match a with
    | ⟨0, _⟩ => have h : (j 0).val < 1 := (j 0).isLt; show (j 0).val = 0; omega
    | ⟨1, _⟩ => rfl
    | ⟨2, _⟩ => rfl)

/-- The stored block as a function of the block index: the perspective match of the staged blocks' rows. -/
theorem stored_fun (x0 x1 : Vec Ideal S1x1024x256 .f32) (x2 : Vec Ideal S128x256 .f32) :
    k0_pay1 (k0_pay3 x0) (k0_pay4 x0 x1) (k0_pay5 x2) (k0_pay6 x0 x1)
      = fun j : S1x1024x128.Idx => persp eps (rowA x0 (rowOf j)) (mavOfUnit eps (rowA x0 (rowOf j)) (rowsB x1)) (rowK x2 (perspOf j)) :=
  funext fun j => (congrArg (k0_pay1 (k0_pay3 x0) (k0_pay4 x0 x1) (k0_pay5 x2) (k0_pay6 x0 x1)) (blockIdx_eq j)).trans
    (stored_apply x0 x1 x2 (rowOf j) (perspOf j))

/-- The staged rows are the arrays' rows at the point's batch. -/
theorem rowA_iblk (c : Dev nD) (t : Fin cfg0.N) (l : Fin 1024) :
    rowA (iblk m c 0 t) l = fun d => (V m c main_arg0 : S16x1024x256.Idx → EReal) (ix3 (batchOf t) l d) :=
  funext fun d => iblk0_apply m c t l d
theorem rowsB_iblk (c : Dev nD) (t : Fin cfg0.N) :
    rowsB (iblk m c 1 t) = fun m' d => (V m c main_arg1 : S16x1024x256.Idx → EReal) (ix3 (batchOf t) m' d) :=
  funext fun m' => funext fun d => iblk1_apply m c t m' d
theorem rowK_iblk (c : Dev nD) (t : Fin cfg0.N) (p : Fin 128) :
    rowK (iblk m c 2 t) p = fun d => (V m c main_v0 : S128x256.Idx → EReal) (ix2 p d) :=
  funext fun d => iblk2_apply m c t p d

/-- WHAT POINT `t` WRITES BACK is block `t` of `padded` of the arrays as the region finds them. -/
theorem flushed_eq (c : Dev nD) (t : Fin cfg0.N) :
    (dats m 0 c).flushed 3 t
      = ((cfg0.win 3).blk t).view.read (Elt Ideal) (padded (V m c main_arg0) (V m c main_arg1) (V m c main_v0)) := by
  show (cfg0.win 3).cut (grid0.coords t) ((dats m 0 c).after 3 t) = _
  rw [after0_3]
  unfold out0_3
  rw [View.canon_unit_zero hz3]
  simp only [View.ld_unit_zero (S := S1x1024x256) hz3, View.ld_unit_zero (S := S128x256) hz2]
  rw [stored_fun]
  obtain ⟨-, -, -, -, -, -, -, -, e0, e1, e2⟩ := idx_facts t
  funext j
  show persp eps (rowA (iblk m c 0 t) (rowOf j)) (mavOfUnit eps (rowA (iblk m c 0 t) (rowOf j)) (rowsB (iblk m c 1 t))) (rowK (iblk m c 2 t) (perspOf j))
    = padded (V m c main_arg0) (V m c main_arg1) (V m c main_v0) (((cfg0.win 3).blk t).view.emb j)
  rw [rowA_iblk, rowsB_iblk, rowK_iblk]
  refine (padded_apply _ _ _ _ (batchOf t) (rowOf j) (perspOf j) ?_ ?_ ?_).symm
  · show win0_3.index t (0 : Fin 3) * 1 + 1 * (j 0).val = t.val
    have h : (j 0).val < 1 := (j 0).isLt
    rw [e0]; omega
  · show win0_3.index t (1 : Fin 3) * 1024 + 1 * (j 1).val = (j 1).val
    rw [e1]; omega
  · show win0_3.index t (2 : Fin 3) * 128 + 1 * (j 2).val = (j 2).val
    rw [e2]; omega

/-! ## The cover and the array -/

/-- An index of the array is in point `t`'s block iff each coordinate is in the block's range on its axis. -/
theorem mem_blk (t : Fin cfg0.N) (i : S16x1024x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v1).slice (win0_3.rect t)).set ↔ _
  rw [View.set_slice_whole, Rect.mem_set_unit]
  exact Iff.rfl

/-- Every index of the output array lies in the block of the point its batch coordinate names. -/
theorem cover (i : S16x1024x128.Idx) : ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 128 := (i 2).isLt
  let t : Fin cfg0.N := ⟨(i 0).val, by show (i 0).val < grid0.N; rw [N_0]; exact hi0⟩
  obtain ⟨-, -, -, -, -, -, -, -, e0, e1, e2⟩ := idx_facts t
  have ht : t.val = (i 0).val := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1024 ≤ (i 1).val ∧ (i 1).val < win0_3.index t (1 : Fin 3) * 1024 + 1024; rw [e1]; omega
  | ⟨2, _⟩ => show win0_3.index t (2 : Fin 3) * 128 ≤ (i 2).val ∧ (i 2).val < win0_3.index t (2 : Fin 3) * 128 + 128; rw [e2]; omega

/-- THE OUTPUT ARRAY after the run is `padded` of the arrays the region finds. -/
theorem final (c : Dev nD) :
    (dats m 0 c).arrAt 3 cfg0.N = padded (V m c main_arg0) (V m c main_arg1) (V m c main_v0) :=
  (dats m 0 c).arrAt_eq_of_cover 3 _ (fun t _ => flushed_eq m c t) cover

end Cert.KernelIdeal.Whole

end
-- ==== Proof.PaddedKernel.lean ====
/-
  What the region finds in the padded kernel-row array at a row below 20.

  Before the region the host pads the 20 × 256 array of kernel rows to 128 × 256: no rows in front, 108 rows of the
  padding value behind, nothing between rows, and no padding along the lanes. The contents of the padded array when
  the region is entered are therefore that padding of the launch contents of the kernel rows, and at a row `p < 20`
  and lane `d` the padded array holds the kernel-row array's entry at `(p, d)`: the index lies inside the operand
  on both axes (low padding 0, interior 0).
-/
import proofs.«145634_j51187420234470_2_alg».proof.Proof.Gen.KernelIdeal.Frame
import Idealize.ShloMosaic.Lib.StableHlo.Run
import Idealize.ShloMosaic.Lib.ValueIdx
import Idealize.ShloMosaic.Lib.Pipeline.Value
import Idealize.ShloMosaic.Lib.KernelVsHost

noncomputable section

open Idealize.ShloMosaic Idealize.ShloMosaic.TcCoe Idealize.ShloMosaic.ValueIdx Idealize.SL.Sem Cert.KernelIdeal Cert.KernelIdeal.Gen

namespace Cert.KernelIdeal.Padded

/-- The padded array's contents at region entry: the padding of the kernel-row array as launched, by 108 rows of the
    converted zero word behind. -/
theorem V_main_v0 (m : (ℓ : Loc nD τ sig) → Buf (Elt Ideal) ℓ) (c : Dev nD) :
    (V m c main_v0 : S128x256.Idx → EReal)
      = pad S128x256 ![0, 0] ![108, 0] ![0, 0] (m ((c : Thread nD τ).loc main_arg2) : S20x256.Idx → EReal)
          (sitofp (F := Ideal) .f32 (constantI S_ 32 0#32)) Facts₀.pads_S20x256_S128x256_01080_000 Facts₀.h_S_ := by
  dsimp only [V, V0]
  simp only [hostOps0, hostOps0_1, List.flatten_cons, List.flatten_nil, List.append_nil, List.cons_append,
    List.nil_append]
  after_results
  rfl

/-- At a row below 20 the padded array holds the kernel-row array's entry. -/
theorem paddedKernel_apply (m : (ℓ : Loc nD τ sig) → Buf (Elt Ideal) ℓ) (c : Dev nD) (p : Fin 128) (hp : p.val < 20) (d : Fin 256) :
    (V m c main_v0 : S128x256.Idx → EReal) (ix2 p d) = (m ((c : Thread nD τ).loc main_arg2) : S20x256.Idx → EReal) (ix2 ⟨p.val, hp⟩ d) := by
  rw [V_main_v0]
  exact pad_apply_of_inside _ _ _ _ _ Facts₀.pads_S20x256_S128x256_01080_000 Facts₀.h_S_ (ix2 p d) (ix2 ⟨p.val, hp⟩ d)
    (fun a => by
      match a with
      | ⟨0, _⟩ => show p.val = 0 + p.val * (0 + 1); omega
      | ⟨1, _⟩ => show d.val = 0 + d.val * (0 + 1); omega)

end Cert.KernelIdeal.Padded

end
-- ==== Proof.AttentiveAlgebra.lean ====
/-
  The law that joins the two spellings of the mean attentive vector (definitions and the mathematics: the
  specification module beside this one), and the positivity of ε's word.
-/
import proofs.«145634_j51187420234470_2_alg».proof.Proof.AttentiveSpec

noncomputable section

open Idealize.ShloMosaic
open scoped BigOperators

namespace Cert.Attentive

variable {κ δ : Type} [Fintype κ] [Fintype δ]

/-- A finite sum of coerced reals is the coercion of the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- The coercion of reals into the extended reals is monotone, so it commutes with `max`. -/
theorem coe_max (x y : ℝ) : ((max x y : ℝ) : EReal) = max (x : EReal) (y : EReal) :=
  EReal.coe_strictMono.monotone.map_max

/-- The clamped norm of a real row under a positive real ε is a positive real. -/
theorem rowNorm_coe {e : ℝ} (he : 0 < e) (x : δ → ℝ) :
    ∃ n : ℝ, 0 < n ∧ rowNorm (e : EReal) (fun d => (x d : EReal)) = (n : EReal) := by
  have hpos : 0 < max (∑ d, x d * x d) e := lt_of_lt_of_le he (le_max_right _ _)
  refine ⟨Real.sqrt (max (∑ d, x d * x d) e), Real.sqrt_pos.mpr hpos, ?_⟩
  unfold rowNorm
  simp only [← EReal.coe_mul]
  rw [coe_sum, ← coe_max, Ideal.sqrt_coe, if_neg (not_lt.mpr hpos.le)]

/-- Rows normalised first: with real rows and nonzero real norms the cosine is the coercion of
    `Σ_d (a d · 1/na) · (b d · 1/nb)`. -/
theorem cosOfUnit_coe {ε : EReal} (a b : δ → ℝ) {na nb : ℝ} (hna : na ≠ 0) (hnb : nb ≠ 0)
    (ha : rowNorm ε (fun d => (a d : EReal)) = (na : EReal))
    (hb : rowNorm ε (fun d => (b d : EReal)) = (nb : EReal)) :
    cosOfUnit ε (fun d => (a d : EReal)) (fun d => (b d : EReal))
      = ((∑ d, (a d * (1 / na)) * (b d * (1 / nb)) : ℝ) : EReal) := by
  unfold cosOfUnit
  rw [ha, hb]
  simp only [Ideal.div_coe hna, Ideal.div_coe hnb, ← EReal.coe_mul]
  rw [coe_sum]

/-- Dot product first: with real rows and nonzero real norms the cosine is the coercion of
    `(Σ_d a d · b d) · 1/na · 1/nb`. -/
theorem cosOfDot_coe {ε : EReal} (a b : δ → ℝ) {na nb : ℝ} (hna : na ≠ 0) (hnb : nb ≠ 0)
    (ha : rowNorm ε (fun d => (a d : EReal)) = (na : EReal))
    (hb : rowNorm ε (fun d => (b d : EReal)) = (nb : EReal)) :
    cosOfDot ε (fun d => (a d : EReal)) (fun d => (b d : EReal))
      = (((∑ d, a d * b d) * (1 / na) * (1 / nb) : ℝ) : EReal) := by
  unfold cosOfDot
  rw [ha, hb, Ideal.div_coe hnb, Ideal.div_coe hna]
  simp only [← EReal.coe_mul]
  rw [coe_sum, ← EReal.coe_mul, ← EReal.coe_mul]

/-- The two spellings of the cosine agree on real rows with nonzero real norms: distributivity in ℝ. -/
theorem cosOfUnit_eq_cosOfDot {ε : EReal} (a b : δ → ℝ) {na nb : ℝ} (hna : na ≠ 0) (hnb : nb ≠ 0)
    (ha : rowNorm ε (fun d => (a d : EReal)) = (na : EReal))
    (hb : rowNorm ε (fun d => (b d : EReal)) = (nb : EReal)) :
    cosOfUnit ε (fun d => (a d : EReal)) (fun d => (b d : EReal))
      = cosOfDot ε (fun d => (a d : EReal)) (fun d => (b d : EReal)) := by
  rw [cosOfUnit_coe a b hna hnb ha hb, cosOfDot_coe a b hna hnb ha hb]
  congr 1
  rw [Finset.sum_mul, Finset.sum_mul]
  exact Finset.sum_congr rfl (fun d _ => by ring)

/-- The two spellings of the mass agree on real rows with nonzero real norms: distributivity and the
    exchange of the two finite sums in ℝ. -/
theorem massOfUnit_eq_massOfDot {ε : EReal} (a : δ → ℝ) (B : κ → δ → ℝ) {na : ℝ} {nb : κ → ℝ}
    (hna : na ≠ 0) (hnb : ∀ m, nb m ≠ 0)
    (ha : rowNorm ε (fun d => (a d : EReal)) = (na : EReal))
    (hb : ∀ m, rowNorm ε (fun d => (B m d : EReal)) = (nb m : EReal)) :
    massOfUnit ε (fun d => (a d : EReal)) (fun m d => (B m d : EReal))
      = massOfDot ε (fun d => (a d : EReal)) (fun m d => (B m d : EReal)) := by
  unfold massOfUnit massOfDot
  congr 1
  simp only [cosOfDot_coe a (B _) hna (hnb _) ha (hb _)]
  rw [ha]
  simp only [hb, Ideal.div_coe hna, Ideal.div_coe (hnb _), ← EReal.coe_mul]
  simp only [coe_sum, ← EReal.coe_mul]
  congr 1
  simp only [Finset.mul_sum, Finset.sum_mul]
  rw [Finset.sum_comm]
  exact Finset.sum_congr rfl (fun m _ => Finset.sum_congr rfl (fun d _ => by ring))

/-- The f32 word of `1e-7` denotes a positive real. -/
theorem eps_pos : ∃ e : ℝ, 0 < e ∧ Ideal.ofBits .f32 0x33D6BF95#32 = (e : EReal) := by
  refine ⟨(1 : ℝ) * ((2 ^ 23 + 0x56BF95 : Nat) : ℝ) * (2 : ℝ) ^ ((103 : Int) - (2 ^ (8 - 1) - 1) - (23 : Nat)),
    by positivity, ?_⟩
  simp [Ideal.ofBits, Ideal.ieee, -EReal.coe_mul]

/-- THE LAW: on real entries and a positive real ε the two spellings of the mean attentive vector are one. -/
theorem mavOfUnit_eq_mavOfDot {ε : EReal} {e : ℝ} (he : 0 < e) (hε : ε = (e : EReal)) (a : δ → EReal)
    (B : κ → δ → EReal) (ha : ∀ d, ∃ r : ℝ, a d = (r : EReal)) (hB : ∀ m d, ∃ r : ℝ, B m d = (r : EReal)) :
    mavOfUnit ε a B = mavOfDot ε a B := by
  subst hε
  choose a' ha' using ha
  choose B' hB' using hB
  obtain rfl : a = fun d => (a' d : EReal) := funext ha'
  obtain rfl : B = fun m d => (B' m d : EReal) := funext fun m => funext (hB' m)
  obtain ⟨na, hna, hA⟩ := rowNorm_coe he a'
  choose nb hnb hBn using fun m => rowNorm_coe he (B' m)
  funext d
  unfold mavOfUnit mavOfDot
  rw [massOfUnit_eq_massOfDot a' B' hna.ne' (fun m => (hnb m).ne') hA hBn]
  congr 1
  exact Finset.sum_congr rfl (fun m _ => by
    rw [cosOfUnit_eq_cosOfDot a' (B' m) hna.ne' (hnb m).ne' hA (hBn m)])

end Cert.Attentive

end
-- ==== Proof.ReferenceEntry.lean ====
/-
  The reference program's result at an index is the specification's perspective match of the attentive vector
  whose cosines are the dot product divided by the two clamped norms.

  Each stage of the reference is read at explicit coordinates. A sum stage reads as its initial value, the word of
  zero, plus the sum over the reduced coordinate; a contraction as the sum over the contracted coordinate of the
  products; a broadcast reads its operand at the coordinates it keeps. Composed, the stages are literally the
  specification's expressions: the clamped norms of a row of the first and of the second sentence, the cosine as the
  dot product divided by both, the mass as the sum of the cosines plus ε, the attentive vector as the cosine-weighted
  sum of the second sentence's rows divided by the mass, and the perspective-weighted cosine of the first sentence's
  row and the attentive vector under a kernel row.
-/
import proofs.«145634_j51187420234470_2_alg».proof.Proof.Gen.ReferenceIdeal.Read
import proofs.«145634_j51187420234470_2_alg».proof.Proof.AttentiveSpec

noncomputable section

open Idealize.ShloMosaic Idealize.ShloMosaic.ValueIdx Cert.ReferenceIdeal Cert.ReferenceIdeal.Read Cert.Attentive
open scoped BigOperators

namespace Cert.ReferenceIdeal.Entry

/-- ε: the extended real the f32 word of `1e-7` denotes. -/
abbrev eps : EReal := Ideal.ofBits .f32 0x33D6BF95#32

/-! ### The index maps of the stages at explicit coordinates -/

theorem idx_v1 (b : Fin 16) (l : Fin 1024) (k : Fin 256) : idx_main_v1 (ix2 b l) k = ix3 b l k :=
  funext fun a => Fin.ext (by match a with | ⟨0, _⟩ => rfl | ⟨1, _⟩ => rfl | ⟨2, _⟩ => rfl)
theorem idx_v6 (b : Fin 16) (m : Fin 1024) (k : Fin 256) : idx_main_v6 (ix2 b m) k = ix3 b m k :=
  funext fun a => Fin.ext (by match a with | ⟨0, _⟩ => rfl | ⟨1, _⟩ => rfl | ⟨2, _⟩ => rfl)
theorem lidx_v10 (b : Fin 16) (l m : Fin 1024) (k : Fin 256) : lidx_main_v10 (ix3 b l m) k = ix3 b l k :=
  funext fun a => Fin.ext (by match a with | ⟨0, _⟩ => rfl | ⟨1, _⟩ => rfl | ⟨2, _⟩ => rfl)
theorem ridx_v10 (b : Fin 16) (l m : Fin 1024) (k : Fin 256) : ridx_main_v10 (ix3 b l m) k = ix3 b m k :=
  funext fun a => Fin.ext (by match a with | ⟨0, _⟩ => rfl | ⟨1, _⟩ => rfl | ⟨2, _⟩ => rfl)
theorem idx_v11 (b : Fin 16) (l : Fin 1024) (z : Fin 1) : idx_main_v11 (ix3 b l z) = ix2 b l :=
  funext fun a => Fin.ext (by match a with | ⟨0, _⟩ => rfl | ⟨1, _⟩ => rfl)
theorem idx_v12 (b : Fin 16) (l m : Fin 1024) : idx_main_v12 (ix3 b l m) = ix3 b l (0 : Fin 1) :=
  funext fun a => Fin.ext (by match a with | ⟨0, _⟩ => rfl | ⟨1, _⟩ => rfl | ⟨2, _⟩ => rfl)
theorem idx_v14 (b : Fin 16) (z : Fin 1) (m : Fin 1024) : idx_main_v14 (ix3 b z m) = ix2 b m :=
  funext fun a => Fin.ext (by match a with | ⟨0, _⟩ => rfl | ⟨1, _⟩ => rfl)
theorem idx_v15 (b : Fin 16) (l m : Fin 1024) : idx_main_v15 (ix3 b l m) = ix3 b (0 : Fin 1) m :=
  funext fun a => Fin.ext (by match a with | ⟨0, _⟩ => rfl | ⟨1, _⟩ => rfl | ⟨2, _⟩ => rfl)
theorem lidx_v17 (b : Fin 16) (l : Fin 1024) (d : Fin 256) (k : Fin 1024) : lidx_main_v17 (ix3 b l d) k = ix3 b l k :=
  funext fun a => Fin.ext (by match a with | ⟨0, _⟩ => rfl | ⟨1, _⟩ => rfl | ⟨2, _⟩ => rfl)
theorem ridx_v17 (b : Fin 16) (l : Fin 1024) (d : Fin 256) (k : Fin 1024) : ridx_main_v17 (ix3 b l d) k = ix3 b k d :=
  funext fun a => Fin.ext (by match a with | ⟨0, _⟩ => rfl | ⟨1, _⟩ => rfl | ⟨2, _⟩ => rfl)
theorem idx_v18 (b : Fin 16) (l : Fin 1024) (k : Fin 1024) : idx_main_v18 (ix2 b l) k = ix3 b l k :=
  funext fun a => Fin.ext (by match a with | ⟨0, _⟩ => rfl | ⟨1, _⟩ => rfl | ⟨2, _⟩ => rfl)
theorem idx_v19 (b : Fin 16) (l : Fin 1024) (z : Fin 1) : idx_main_v19 (ix3 b l z) = ix2 b l :=
  funext fun a => Fin.ext (by match a with | ⟨0, _⟩ => rfl | ⟨1, _⟩ => rfl)
theorem idx_v22 (b : Fin 16) (l : Fin 1024) (d : Fin 256) : idx_main_v22 (ix3 b l d) = ix3 b l (0 : Fin 1) :=
  funext fun a => Fin.ext (by match a with | ⟨0, _⟩ => rfl | ⟨1, _⟩ => rfl | ⟨2, _⟩ => rfl)
theorem lidx_v26 (b : Fin 16) (l : Fin 1024) (p : Fin 20) (k : Fin 256) : lidx_main_v26 (ix3 b l p) k = ix3 b l k :=
  funext fun a => Fin.ext (by match a with | ⟨0, _⟩ => rfl | ⟨1, _⟩ => rfl | ⟨2, _⟩ => rfl)
theorem ridx_v26 (b : Fin 16) (l : Fin 1024) (p : Fin 20) (k : Fin 256) : ridx_main_v26 (ix3 b l p) k = ix2 p k :=
  funext fun a => Fin.ext (by match a with | ⟨0, _⟩ => rfl | ⟨1, _⟩ => rfl)
theorem lidx_v28 (b : Fin 16) (l : Fin 1024) (p : Fin 20) (k : Fin 256) : lidx_main_v28 (ix3 b l p) k = ix3 b l k :=
  funext fun a => Fin.ext (by match a with | ⟨0, _⟩ => rfl | ⟨1, _⟩ => rfl | ⟨2, _⟩ => rfl)
theorem ridx_v28 (b : Fin 16) (l : Fin 1024) (p : Fin 20) (k : Fin 256) : ridx_main_v28 (ix3 b l p) k = ix2 p k :=
  funext fun a => Fin.ext (by match a with | ⟨0, _⟩ => rfl | ⟨1, _⟩ => rfl)
theorem lidx_v33 (b : Fin 16) (l : Fin 1024) (p : Fin 20) (k : Fin 256) : lidx_main_v33 (ix3 b l p) k = ix3 b l k :=
  funext fun a => Fin.ext (by match a with | ⟨0, _⟩ => rfl | ⟨1, _⟩ => rfl | ⟨2, _⟩ => rfl)
theorem ridx_v33 (b : Fin 16) (l : Fin 1024) (p : Fin 20) (k : Fin 256) : ridx_main_v33 (ix3 b l p) k = ix2 p k :=
  funext fun a => Fin.ext (by match a with | ⟨0, _⟩ => rfl | ⟨1, _⟩ => rfl)

/-! ### The stages -/

/-- The clamped norm of a row of the first sentence. -/
theorem norm0_apply (x0 : (⟨S16x1024x256, .f32⟩ : BufTy).Contents (Elt Ideal)) (b : Fin 16) (l : Fin 1024) :
    val_main_v4 (F := Ideal) x0 (ix2 b l) = rowNorm eps (fun d => x0 (ix3 b l d)) := by
  rw [val_main_v4_apply, val_main_v3_apply, val_main_v1_apply, val_main_v2_apply, val_main_cst_0_apply,
    val_main_cst_apply]
  simp only [val_main_v0_apply, idx_v1, Ideal.mulf_def, Ideal.maximumf_def, Ideal.hostUnary_sqrt_def, Ideal.ofBits_def,
    Ideal.ofBits_zero_f32, zero_add]
  rfl

/-- The clamped norm of a row of the second sentence. -/
theorem norm1_apply (x1 : (⟨S16x1024x256, .f32⟩ : BufTy).Contents (Elt Ideal)) (b : Fin 16) (m : Fin 1024) :
    val_main_v9 (F := Ideal) x1 (ix2 b m) = rowNorm eps (fun d => x1 (ix3 b m d)) := by
  rw [val_main_v9_apply, val_main_v8_apply, val_main_v6_apply, val_main_v7_apply, val_main_cst_2_apply,
    val_main_cst_1_apply]
  simp only [val_main_v5_apply, idx_v6, Ideal.mulf_def, Ideal.maximumf_def, Ideal.hostUnary_sqrt_def, Ideal.ofBits_def,
    Ideal.ofBits_zero_f32, zero_add]
  rfl

/-- The cosine of a row of the first sentence and a row of the second: the dot product divided by both norms. -/
theorem cos_apply (x0 x1 : (⟨S16x1024x256, .f32⟩ : BufTy).Contents (Elt Ideal)) (b : Fin 16) (l m : Fin 1024) :
    val_main_v16 (F := Ideal) x0 x1 (ix3 b l m)
      = cosOfDot eps (fun d => x0 (ix3 b l d)) (fun d => x1 (ix3 b m d)) := by
  rw [val_main_v16_apply, val_main_v13_apply, val_main_v10_apply, val_main_v12_apply, val_main_v11_apply,
    val_main_v15_apply, val_main_v14_apply, idx_v12, idx_v11, idx_v15, idx_v14, norm0_apply, norm1_apply]
  simp only [lidx_v10, ridx_v10, Ideal.hostDivf_def]
  rfl

/-- The mass of a row of the first sentence: the sum of its cosines plus ε. -/
theorem mass_apply (x0 x1 : (⟨S16x1024x256, .f32⟩ : BufTy).Contents (Elt Ideal)) (b : Fin 16) (l : Fin 1024) :
    val_main_v21 (F := Ideal) x0 x1 (ix3 b l (0 : Fin 1))
      = massOfDot eps (fun d => x0 (ix3 b l d)) (fun m d => x1 (ix3 b m d)) := by
  rw [val_main_v21_apply, val_main_v19_apply, idx_v19, val_main_v18_apply, val_main_v20_apply, val_main_cst_4_apply,
    val_main_cst_3_apply]
  simp only [idx_v18, cos_apply, Ideal.addf_def, Ideal.ofBits_def, Ideal.ofBits_zero_f32, zero_add]
  rfl

/-- The attentive vector of a row of the first sentence at a coordinate. -/
theorem mav_apply (x0 x1 : (⟨S16x1024x256, .f32⟩ : BufTy).Contents (Elt Ideal)) (b : Fin 16) (l : Fin 1024) (d : Fin 256) :
    val_main_v23 (F := Ideal) x0 x1 (ix3 b l d)
      = mavOfDot eps (fun d => x0 (ix3 b l d)) (fun m d => x1 (ix3 b m d)) d := by
  rw [val_main_v23_apply, val_main_v17_apply, val_main_v22_apply, idx_v22, mass_apply]
  simp only [lidx_v17, ridx_v17, cos_apply, Ideal.hostDivf_def]
  rfl

/-- The weighted dot product of the first sentence's row and its attentive vector under a kernel row. -/
theorem num_apply (x0 x1 : (⟨S16x1024x256, .f32⟩ : BufTy).Contents (Elt Ideal)) (x2 : (⟨S20x256, .f32⟩ : BufTy).Contents (Elt Ideal))
    (b : Fin 16) (l : Fin 1024) (p : Fin 20) :
    val_main_v26 (F := Ideal) x0 x1 x2 (ix3 b l p)
      = ∑ d : Fin 256, (x0 (ix3 b l d) * mavOfDot eps (fun d => x0 (ix3 b l d)) (fun m d => x1 (ix3 b m d)) d)
          * (x2 (ix2 p d) * x2 (ix2 p d)) := by
  rw [val_main_v26_apply]
  simp only [lidx_v26, ridx_v26, val_main_v25_apply, val_main_v24_apply, mav_apply, Ideal.mulf_def]

/-- The weighted clamped norm of the first sentence's row under a kernel row. -/
theorem wnorm0_apply (x0 : (⟨S16x1024x256, .f32⟩ : BufTy).Contents (Elt Ideal)) (x2 : (⟨S20x256, .f32⟩ : BufTy).Contents (Elt Ideal))
    (b : Fin 16) (l : Fin 1024) (p : Fin 20) :
    val_main_v31 (F := Ideal) x0 x2 (ix3 b l p)
      = Ideal.sqrt (max (∑ d : Fin 256, (x0 (ix3 b l d) * x0 (ix3 b l d)) * (x2 (ix2 p d) * x2 (ix2 p d))) eps) := by
  rw [val_main_v31_apply, val_main_v30_apply, val_main_v28_apply, val_main_v29_apply, val_main_cst_5_apply]
  simp only [lidx_v28, ridx_v28, val_main_v27_apply, val_main_v24_apply, Ideal.mulf_def, Ideal.maximumf_def,
    Ideal.hostUnary_sqrt_def, Ideal.ofBits_def]

/-- The weighted clamped norm of the attentive vector under a kernel row. -/
theorem wnorm1_apply (x0 x1 : (⟨S16x1024x256, .f32⟩ : BufTy).Contents (Elt Ideal)) (x2 : (⟨S20x256, .f32⟩ : BufTy).Contents (Elt Ideal))
    (b : Fin 16) (l : Fin 1024) (p : Fin 20) :
    val_main_v36 (F := Ideal) x0 x1 x2 (ix3 b l p)
      = Ideal.sqrt (max (∑ d : Fin 256,
          (mavOfDot eps (fun d => x0 (ix3 b l d)) (fun m d => x1 (ix3 b m d)) d
            * mavOfDot eps (fun d => x0 (ix3 b l d)) (fun m d => x1 (ix3 b m d)) d)
          * (x2 (ix2 p d) * x2 (ix2 p d))) eps) := by
  rw [val_main_v36_apply, val_main_v35_apply, val_main_v33_apply, val_main_v34_apply, val_main_cst_6_apply]
  simp only [lidx_v33, ridx_v33, val_main_v32_apply, val_main_v24_apply, mav_apply, Ideal.mulf_def, Ideal.maximumf_def,
    Ideal.hostUnary_sqrt_def, Ideal.ofBits_def]

/-- The reference's result at an index is the perspective match of the first sentence's row and its attentive vector. -/
theorem result_apply (x0 x1 : (⟨S16x1024x256, .f32⟩ : BufTy).Contents (Elt Ideal)) (x2 : (⟨S20x256, .f32⟩ : BufTy).Contents (Elt Ideal))
    (b : Fin 16) (l : Fin 1024) (p : Fin 20) :
    val_main_v38 (F := Ideal) x0 x1 x2 (ix3 b l p)
      = persp eps (fun d => x0 (ix3 b l d)) (mavOfDot eps (fun d => x0 (ix3 b l d)) (fun m d => x1 (ix3 b m d))) (fun d => x2 (ix2 p d)) := by
  rw [val_main_v38_apply, val_main_v37_apply, num_apply, wnorm0_apply, wnorm1_apply]
  simp only [Ideal.hostDivf_def]
  rfl

end Cert.ReferenceIdeal.Entry

end
-- ==== Proof.ResultSpec.lean ====
/-
  The result of the whole computation as one function of the three argument arrays, entry by entry: at
  `(b, l, p)` the perspective-weighted cosine of row `l` of batch `b` of the first sentence and its mean
  attentive vector over batch `b` of the second, under kernel row `p`. It is stated for either spelling of the
  attentive vector; under real entries the two are one function (the joining law), and the reference program's
  last stage is the dot-product spelling.
-/
import proofs.«145634_j51187420234470_2_alg».proof.Proof.AttentiveAlgebra
import proofs.«145634_j51187420234470_2_alg».proof.Proof.ReferenceEntry
import Idealize.ShloMosaic.Lib.ValueIdx

noncomputable section

open Idealize.ShloMosaic Idealize.ShloMosaic.ValueIdx
open scoped BigOperators

namespace Cert.Attentive

/-- ε: the extended real the f32 word of `1e-7` denotes. -/
abbrev epsWord : EReal := Ideal.ofBits .f32 0x33D6BF95#32

abbrev Sent : Shape := ⟨3, ![16, 1024, 256]⟩
abbrev Rows : Shape := ⟨2, ![20, 256]⟩
abbrev Out : Shape := ⟨3, ![16, 1024, 20]⟩

/-- The three coordinates of a result index. -/
def batchAt (i : Out.Idx) : Fin 16 := ⟨(i 0).val, (i 0).isLt⟩
def rowAt (i : Out.Idx) : Fin 1024 := ⟨(i 1).val, (i 1).isLt⟩
def perspAt (i : Out.Idx) : Fin 20 := ⟨(i 2).val, (i 2).isLt⟩

theorem outIdx_eq (i : Out.Idx) : i = ix3 (batchAt i) (rowAt i) (perspAt i) :=
  funext fun a => Fin.ext (by
    match a with
    | ⟨0, _⟩ => rfl
    | ⟨1, _⟩ => rfl
    | ⟨2, _⟩ => rfl)

/-- The result with the attentive vector computed by `mav`. -/
def resultWith (mav : (Fin 256 → EReal) → (Fin 1024 → Fin 256 → EReal) → Fin 256 → EReal)
    (a0 a1 : Sent.Idx → EReal) (k : Rows.Idx → EReal) : Out.Idx → EReal := fun i =>
  persp epsWord (fun d => a0 (ix3 (batchAt i) (rowAt i) d))
    (mav (fun d => a0 (ix3 (batchAt i) (rowAt i) d)) (fun m d => a1 (ix3 (batchAt i) m d)))
    (fun d => k (ix2 (perspAt i) d))

/-- The rows-normalised-first spelling and the dot-product-then-divide spelling of the result. -/
abbrev resultUnit := resultWith (mavOfUnit epsWord)
abbrev resultDot := resultWith (mavOfDot epsWord)

/-- On real entries the two spellings of the result are one function. -/
theorem resultUnit_eq_resultDot (a0 a1 : Sent.Idx → EReal) (k : Rows.Idx → EReal)
    (h0 : ∀ i, ∃ r : ℝ, a0 i = (r : EReal)) (h1 : ∀ i, ∃ r : ℝ, a1 i = (r : EReal)) :
    resultUnit a0 a1 k = resultDot a0 a1 k := by
  obtain ⟨e, he, hε⟩ := eps_pos
  funext i
  show persp epsWord _ (mavOfUnit epsWord _ _) _ = persp epsWord _ (mavOfDot epsWord _ _) _
  rw [mavOfUnit_eq_mavOfDot he hε _ _ (fun d => h0 _) (fun m d => h1 _)]

/-- The reference program's last stage is the dot-product spelling of the result. -/
theorem reference_eq (x0 x1 : Sent.Idx → EReal) (x2 : Rows.Idx → EReal) :
    Cert.ReferenceIdeal.Read.val_main_v38 (F := Ideal) x0 x1 x2 = resultDot x0 x1 x2 :=
  funext fun i => (congrArg (Cert.ReferenceIdeal.Read.val_main_v38 (F := Ideal) x0 x1 x2) (outIdx_eq i)).trans
    (Cert.ReferenceIdeal.Entry.result_apply x0 x1 x2 (batchAt i) (rowAt i) (perspAt i))

end Cert.Attentive

end
-- ==== Proof.KernelResult.lean ====
/-
  The kernel program's run, read: the result buffer ends at the rows-normalised-first spelling of the result of
  the three argument arrays. After the region the host slices the first 20 perspectives out of the padded output
  array; a result entry `(b, l, p)` is therefore the padded array's entry `(b, l, p)`, whose kernel row `p < 20`
  is the argument's row `p` (the padding lies behind), and the sentence arrays reach the region as launched.
-/
import proofs.«145634_j51187420234470_2_alg».proof.Proof.KernelArray
import proofs.«145634_j51187420234470_2_alg».proof.Proof.PaddedKernel
import proofs.«145634_j51187420234470_2_alg».proof.Proof.ResultSpec
import Idealize.ShloMosaic.Lib.StableHlo.Run

noncomputable section

open Idealize.ShloMosaic Idealize.ShloMosaic.TcCoe Idealize.ShloMosaic.ValueIdx Idealize.SL.Sem
open Idealize.ShloMosaic.Pipeline (Dat)
open scoped BigOperators

namespace Cert.KernelIdeal.Result

open Cert.KernelIdeal Cert.KernelIdeal.Gen Cert.KernelIdeal.Entry Cert.KernelIdeal.Whole Cert.Attentive

variable (m : (ℓ : Loc nD τ sig) → Buf (Elt Ideal) ℓ) (ρ : Dev nD → PrngReg)

/-- The host line after the region: the result buffer is the slice of the output array after the run. -/
theorem tail_eq (c : Dev nD) :
    Pipeline.afterTail₀ cfgs (dats m) 0 (V0 m) [hostOps1] c main_v2
      = extractStridedSlice S16x1024x20 ![0, 0, 0] ((dats m 0 c).arrAt 3 cfg0.N) Facts₀.slices_S16x1024x128_S16x1024x20_0_0_0 := by
  unfold Pipeline.afterTail₀
  show StableHlo.after hostOps1 _ (Proc.devRef .tc main_v2) = _
  after_results
  refine congrArg (fun A : S16x1024x128.Idx → EReal => extractStridedSlice S16x1024x20 (![0, 0, 0] : Fin 3 → Nat) A Facts₀.slices_S16x1024x128_S16x1024x20_0_0_0) ?_
  exact Pipeline.withArrays_arr spec0 launch0.win.arr_inj c _ _ 3

/-- The slice of the padded output array is the rows-normalised-first spelling of the result of the argument arrays. -/
theorem slice_eq (c : Dev nD) :
    extractStridedSlice S16x1024x20 ![0, 0, 0] ((dats m 0 c).arrAt 3 cfg0.N) Facts₀.slices_S16x1024x128_S16x1024x20_0_0_0
      = resultUnit (m ((c : Thread nD τ).loc main_arg0)) (m ((c : Thread nD τ).loc main_arg1)) (m ((c : Thread nD τ).loc main_arg2)) := by
  rw [final m c]
  funext i
  have hp : (perspAt i).val < 128 := lt_trans (perspAt i).isLt (by decide)
  have h20 : (⟨(perspAt i).val, hp⟩ : Fin 128).val < 20 := (perspAt i).isLt
  refine (extractStridedSlice_apply _ _ _ i (ix3 (batchAt i) (rowAt i) (⟨(perspAt i).val, hp⟩ : Fin 128)) (fun a => ?_)).trans ?_
  · match a with
    | ⟨0, _⟩ => show (i 0).val = 0 + (i 0).val; omega
    | ⟨1, _⟩ => show (i 1).val = 0 + (i 1).val; omega
    | ⟨2, _⟩ => show (i 2).val = 0 + (i 2).val; omega
  · rw [padded_apply _ _ _ _ (batchAt i) (rowAt i) (⟨(perspAt i).val, hp⟩ : Fin 128) rfl rfl rfl]
    unfold matchAt
    have hk : (fun d => (V m c main_v0 : S128x256.Idx → EReal) (ix2 (⟨(perspAt i).val, hp⟩ : Fin 128) d))
        = fun d => (m ((c : Thread nD τ).loc main_arg2) : S20x256.Idx → EReal) (ix2 (perspAt i) d) :=
      funext fun d => Cert.KernelIdeal.Padded.paddedKernel_apply m c ⟨(perspAt i).val, hp⟩ h20 d
    rw [hk, V_main_arg0 m c, V_main_arg1 m c]
    rfl

/-- THE RUN, READ: every weakly fair execution of the kernel program terminates with the result buffer at the
    rows-normalised-first spelling of the result of the argument arrays, and the arguments unchanged. -/
theorem run : θ_run defs (onTc (τ := τ) (main (F := Ideal))) ⟨m, fun _ => 0, ρ⟩ fun r => ∀ c : Dev nD,
      r.2.mem ((c.tc : Thread nD τ).loc main_v2)
        = resultUnit (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v2 (Pipeline.mem_restRefs_of main_v2 (by decide) (by decide))).trans (tail_eq m c)).trans (slice_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.FiniteEntries.lean ====
/-
  The precondition makes every input entry a real number.

  The printed precondition compares, per argument, the absolute value of every entry with the word of `+∞` by
  "less than", folds the comparisons of one argument by `and` from 1 over all axes, and joins the three folds by
  `and`. If the result is 1 then every comparison is 1, that is `max x (-x) < ⊤` for every entry `x`; an extended
  real whose absolute value is below `⊤` is neither `⊤` nor `⊥`, hence a real number.
-/
import proofs.«145634_j51187420234470_2_alg».proof.Pre_finite_inputs
import proofs.«145634_j51187420234470_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.FiniteEntries

open Cert.Pre_finite_inputs

/-- The scalar shape has one index. -/
instance : Subsingleton S_.Idx := ⟨fun _ _ => funext fun d => d.elim0⟩

/-- The word `0x7F800000` denotes `+∞`. -/
theorem ofBits_inf : Ideal.ofBits .f32 0x7F800000#32 = ⊤ := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|x| < +∞` coming out 1 says that `x` is a real number. -/
theorem real_of_cmp (x : Ideal .f32)
    (h : FloatOps.cmpf .olt (FloatOps.hostAbsf x) (Ideal.ofBits .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact real_of_abs_lt_top x hlt
  · simp [hlt] at h'

/-- One argument: the fold by `and` over all axes of the comparisons `|x i| < +∞` coming out 1 says that every
    entry is a real number. -/
theorem real_of_all {s : Shape} {axes : List (Fin s.rank)} (x : FVec Ideal s .f32)
    (hb : S_.BroadcastsInDim s (![] : Fin 0 → Fin s.rank)) (h : s.ReducesTo axes S_) (hu : 0 < S_.numel)
    (e : Host.reduce IntOp.andi
        (cmpf .olt (Host.absf x) (broadcastInDim s ![] hb (constant S_ .f32 0x7F800000#32)))
        (constantI S_ 1 1#1) h hu ValueIdx.ix0 = 1#1) :
    ∀ i, ∃ r : ℝ, x i = (r : EReal) := by
  intro i
  have hi := Host.reduce_andi_all _ _ h hu _ e i
  exact real_of_cmp (x i) hi

/-- Under the precondition every entry of the three arguments is a real number. -/
theorem real_of_pre (x0 x1 : FVec Ideal Cert.Pre_finite_inputs.S16x1024x256 .f32) (x2 : FVec Ideal Cert.Pre_finite_inputs.S20x256 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1'⟩ := IntOp.andi_eq_one.1 h01
  exact ⟨real_of_all x0 _ _ _ h0', real_of_all x1 _ _ _ h1', real_of_all x2 _ _ _ h2⟩

end Cert.FiniteEntries

end
-- ==== Proof.lean ====
/-
  The cosine cross-attention kernel against its jnp reference, at the ideal values.

  For each batch entry the kernel normalises the rows of both sentences by their clamped Euclidean norms
  `√(max (Σ x², ε))`, takes all cosines as one matrix product of the normalised rows, weights the second
  sentence's rows by them, divides by the row's cosine mass plus ε — computed as the normalised row dotted with
  the sum of the second sentence's normalised rows — and finishes with the perspective-weighted cosine
  `Σ a v k² / √(max (Σ a² k², ε)) / √(max (Σ v² k², ε))` against the squared kernel rows, zero-padded to 128 rows
  on the host and sliced back to 20 afterwards. The reference divides the dot products by the two norms instead of
  normalising first, and sums the cosines for the mass.

  On the extended reals the two differ by distributivity and an exchange of two finite sums, which hold because
  under the precondition every entry is a real number and ε is a positive real (so both norms are positive
  reals); everything after the mean attentive vector is the same expression on both sides, and the padding rows
  are never read by the first 20 perspectives. The frames are the generated ones (the reference's is its
  generated run with the result dropped); the idealization rewrote nothing.
-/
import proofs.«145634_j51187420234470_2_alg».proof.Defs
import proofs.«145634_j51187420234470_2_alg».proof.Proof.Gen.Kernel
import proofs.«145634_j51187420234470_2_alg».proof.Proof.Gen.Kernel.Skeleton
import proofs.«145634_j51187420234470_2_alg».proof.Proof.Gen.Kernel.Launch
import proofs.«145634_j51187420234470_2_alg».proof.Proof.Gen.Kernel.Points
import proofs.«145634_j51187420234470_2_alg».proof.Proof.Gen.Kernel.Frame
import proofs.«145634_j51187420234470_2_alg».proof.Proof.Gen.KernelIdeal
import proofs.«145634_j51187420234470_2_alg».proof.Proof.Gen.KernelIdeal.Skeleton
import proofs.«145634_j51187420234470_2_alg».proof.Proof.Gen.KernelIdeal.Launch
import proofs.«145634_j51187420234470_2_alg».proof.Proof.Gen.KernelIdeal.Points
import proofs.«145634_j51187420234470_2_alg».proof.Proof.Gen.KernelIdeal.Frame
import proofs.«145634_j51187420234470_2_alg».proof.Proof.Gen.ReferenceIdeal
import proofs.«145634_j51187420234470_2_alg».proof.Proof.Gen.ReferenceIdeal.Run
import proofs.«145634_j51187420234470_2_alg».proof.Proof.Gen.ReferenceIdeal.Read
import proofs.«145634_j51187420234470_2_alg».proof.Proof.Gen.Pre_finite_inputs
import proofs.«145634_j51187420234470_2_alg».proof.Proof.KernelResult
import proofs.«145634_j51187420234470_2_alg».proof.Proof.FiniteEntries
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the dot-product spelling of the result of the argument arrays: the kernel at the
    rows-normalised-first spelling, which is the same function because the precondition makes every entry real;
    the reference by its stages read at an index. -/
theorem algebraic : Cert.algebraic_KernelIdeal_ReferenceIdeal := by
  intro m ρ m' ρ' hpre hagree
  refine ⟨fun c => Cert.Attentive.resultDot
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Result.run m ρ)
    obtain ⟨f0, f1, -⟩ := Cert.FiniteEntries.real_of_pre _ _ _ (hpre c)
    exact Cert.Attentive.resultUnit_eq_resultDot _ _ _ f0 f1
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v38_eq m' c).trans ((Cert.Attentive.reference_eq _ _ _).trans ?_)
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
